-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S256x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x625000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x625000 : Shape := ⟨2, ![2, 625000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 46
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x625000, .i32⟩
  | .hbm, ⟨11, _⟩ => ⟨S625000, .i32⟩
  | .hbm, ⟨12, _⟩ => ⟨S1x625000, .i32⟩
  | .hbm, ⟨13, _⟩ => ⟨S625000, .i32⟩
  | .hbm, ⟨14, _⟩ => ⟨S_, .i32⟩
  | .hbm, ⟨15, _⟩ => ⟨S625000, .i32⟩
  | .hbm, ⟨16, _⟩ => ⟨S625000, .i1⟩
  | .hbm, ⟨17, _⟩ => ⟨S_, .i32⟩
  | .hbm, ⟨18, _⟩ => ⟨S625000, .i32⟩
  | .hbm, ⟨19, _⟩ => ⟨S625000, .i32⟩
  | .hbm, ⟨20, _⟩ => ⟨S625000, .i32⟩
  | .hbm, ⟨21, _⟩ => ⟨S625000x1, .i32⟩
  | .hbm, ⟨22, _⟩ => ⟨S625000x128, .f32⟩
  | .hbm, ⟨23, _⟩ => ⟨S_, .i32⟩
  | .hbm, ⟨24, _⟩ => ⟨S625000, .i32⟩
  | .hbm, ⟨25, _⟩ => ⟨S625000, .i1⟩
  | .hbm, ⟨26, _⟩ => ⟨S_, .i32⟩
  | .hbm, ⟨27, _⟩ => ⟨S625000, .i32⟩
  | .hbm, ⟨28, _⟩ => ⟨S625000, .i32⟩
  | .hbm, ⟨29, _⟩ => ⟨S625000, .i32⟩
  | .hbm, ⟨30, _⟩ => ⟨S625000x1, .i32⟩
  | .hbm, ⟨31, _⟩ => ⟨S625000x128, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S1x128, .f32⟩
  | .hbm, ⟨36, _⟩ => ⟨S625000x128, .f32⟩
  | .hbm, ⟨37, _⟩ => ⟨S_, .f32⟩
  | .hbm, ⟨38, _⟩ => ⟨S50000x128, .f32⟩
  | .hbm, ⟨39, _⟩ => ⟨S625000x1, .i32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S1x64, .f32⟩
  | .hbm, ⟨45, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S625000x1_S625000x128_1_0_n_n_0_1_1128_wf : GatherDims.WF S50000x128 S625000x1 S625000x128 [1] [0] [] [0] [] 1 ![1, 128]
  dot_S5000x128_S128x128_S5000x128_1_0_0_1_n_n_wf : DotDims.WF S5000x128 S128x128 S5000x128 [1] [0] [0] [1] [] []
  scatter_S50000x128_S625000x1_S625000x128_1_0_0_1_wf : ScatterDims.WF S50000x128 S625000x1 S625000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S625000x128.size a
  hwx0_0 : ∀ i : grid0.Coords, EltTy.bits .f32 = 32 ∨ (Rect.block (s := S625000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S625000x128.size a
  hwx0_1 : ∀ i : grid0.Coords, EltTy.bits .f32 = 32 ∨ (Rect.block (s := S625000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S625000x128.size a
  hwx0_7 : ∀ i : grid0.Coords, EltTy.bits .f32 = 32 ∨ (Rect.block (s := S625000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S625000x256 : Shape := ⟨2, ![625000, 256]⟩
abbrev S1x128 : Shape := ⟨2, ![1, 128]⟩
abbrev S50000x256 : Shape := ⟨2, ![50000, 256]⟩
abbrev S50000x64 : Shape := ⟨2, ![50000, 64]⟩
abbrev S1x64 : Shape := ⟨2, ![1, 64]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x625000, .i32⟩
  | .hbm, ⟨11, _⟩ => ⟨S625000, .i32⟩
  | .hbm, ⟨12, _⟩ => ⟨S1x625000, .i32⟩
  | .hbm, ⟨13, _⟩ => ⟨S625000, .i32⟩
  | .hbm, ⟨14, _⟩ => ⟨S_, .i32⟩
  | .hbm, ⟨15, _⟩ => ⟨S625000, .i32⟩
  | .hbm, ⟨16, _⟩ => ⟨S625000, .i1⟩
  | .hbm, ⟨17, _⟩ => ⟨S_, .i32⟩
  | .hbm, ⟨18, _⟩ => ⟨S625000, .i32⟩
  | .hbm, ⟨19, _⟩ => ⟨S625000, .i32⟩
  | .hbm, ⟨20, _⟩ => ⟨S625000, .i32⟩
  | .hbm, ⟨21, _⟩ => ⟨S625000x1, .i32⟩
  | .hbm, ⟨22, _⟩ => ⟨S625000x128, .f32⟩
  | .hbm, ⟨23, _⟩ => ⟨S_, .i32⟩
  | .hbm, ⟨24, _⟩ => ⟨S625000, .i32⟩
  | .hbm, ⟨25, _⟩ => ⟨S625000, .i1⟩
  | .hbm, ⟨26, _⟩ => ⟨S_, .i32⟩
  | .hbm, ⟨27, _⟩ => ⟨S625000, .i32⟩
  | .hbm, ⟨28, _⟩ => ⟨S625000, .i32⟩
  | .hbm, ⟨29, _⟩ => ⟨S625000, .i32⟩
  | .hbm, ⟨30, _⟩ => ⟨S625000x1, .i32⟩
  | .hbm, ⟨31, _⟩ => ⟨S625000x128, .f32⟩
  | .hbm, ⟨32, _⟩ => ⟨S625000x256, .f32⟩
  | .hbm, ⟨33, _⟩ => ⟨S625000x128, .f32⟩
  | .hbm, ⟨34, _⟩ => ⟨S1x128, .f32⟩
  | .hbm, ⟨35, _⟩ => ⟨S625000x128, .f32⟩
  | .hbm, ⟨36, _⟩ => ⟨S625000x128, .f32⟩
  | .hbm, ⟨37, _⟩ => ⟨S_, .f32⟩
  | .hbm, ⟨38, _⟩ => ⟨S625000x128, .f32⟩
  | .hbm, ⟨39, _⟩ => ⟨S625000x128, .f32⟩
  | .hbm, ⟨40, _⟩ => ⟨S625000x128, .f32⟩
  | .hbm, ⟨41, _⟩ => ⟨S1x128, .f32⟩
  | .hbm, ⟨42, _⟩ => ⟨S625000x128, .f32⟩
  | .hbm, ⟨43, _⟩ => ⟨S625000x128, .f32⟩
  | .hbm, ⟨44, _⟩ => ⟨S_, .f32⟩
  | .hbm, ⟨45, _⟩ => ⟨S50000x128, .f32⟩
  | .hbm, ⟨46, _⟩ => ⟨S625000x1, .i32⟩
  | .hbm, ⟨47, _⟩ => ⟨S50000x128, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  concatenates_S625000x128_S625000x128_S625000x256_d1 : Shape.Concatenates [S625000x128, S625000x128] S625000x256 1
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S625000x1_S625000x128_1_0_n_n_0_1_1128_wf : GatherDims.WF S50000x128 S625000x1 S625000x128 [1] [0] [] [0] [] 1 ![1, 128]
  dot_S625000x256_S256x128_S625000x128_1_0_0_1_n_n_wf : DotDims.WF S625000x256 S256x128 S625000x128 [1] [0] [0] [1] [] []
  dot_S625000x128_S128x128_S625000x128_1_0_0_1_n_n_wf : DotDims.WF S625000x128 S128x128 S625000x128 [1] [0] [0] [1] [] []
  scatter_S50000x128_S625000x1_S625000x128_1_0_0_1_wf : ScatterDims.WF S50000x128 S625000x1 S625000x128 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S625000x256_S256x128_S625000x128_1_0_0_1_n_n : DotDims S625000x256 S256x128 S625000x128 where
  lhsContracting := [1]
  rhsContracting := [0]
  lhsNonContracting := [0]
  rhsNonContracting := [1]
  lhsBatch := []
  rhsBatch := []
  wf := dot_S625000x256_S256x128_S625000x128_1_0_0_1_n_n_wf
def dot_S625000x128_S128x128_S625000x128_1_0_0_1_n_n : DotDims S625000x128 S128x128 S625000x128 where
  lhsContracting := [1]
  rhsContracting := [0]
  lhsNonContracting := [0]
  rhsNonContracting := [1]
  lhsBatch := []
  rhsBatch := []
  wf := dot_S625000x128_S128x128_S625000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The run of the whole program with its result named.

  The program is four stretches in order: host operations, the first pipeline over 125 grid points, host
  operations, the second pipeline over 10 grid points.  The buffer contents at each boundary are a fold from the
  launch memory (`W0 … W4`): a host stretch applies its operations, a pipeline replaces each of its arrays by what
  its write-backs leave.  The final contents of the result array are therefore the second pipeline's output window
  after all ten of its points, at the entry contents `V3`; the argument arrays are never written.
-/
import proofs.«156553_j49220325212176_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends holding what the
    second pipeline's write-backs leave in its output window, and the ten argument arrays end as launched. -/
theorem run : θ_run defs (onTc (τ := τ) (main (F := F))) ⟨m, fun _ => 0, ρ⟩ (fun r => ∀ c : Dev nD,
      r.2.mem ((c.tc : Thread nD τ).loc main_v30) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v30 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.Perceptron.lean ====
/-
  One entry of a two-layer perceptron whose first layer reads TWO rows of 128 features each.

  With rows `x y : Fin 128 → EReal`, first-layer weights `Wx Wy` (one 128 × 128 block per row), a bias `b`, a
  threshold `z` (the rectifier is `max · z`), second-layer weights `W2` and bias `b2`, the entry in column `j` is
      Σ_k  max (Σ_a x a · Wx a k  +  Σ_a y a · Wy a k  +  b k) z  ·  W2 k j   +   b2 j.
  Everything is over the extended reals; only commutativity and associativity of `+` are used, so no
  finiteness is needed anywhere.

  The second fact is the one law that joins the two programs: a sum over 256 indices of a row that is `x` on its
  first 128 coordinates and `y` on its last 128 is the sum over `x`'s half plus the sum over `y`'s half.
-/
import Mathlib.Data.EReal.Basic
import Mathlib.Algebra.BigOperators.Fin

noncomputable section

namespace Cert.Perceptron

open Finset

/-- The hidden unit `k`: the rectified affine form of the two rows. -/
def hidden (x y : Fin 128 → EReal) (Wx Wy : Fin 128 → Fin 128 → EReal) (b : Fin 128 → EReal) (z : EReal)
    (k : Fin 128) : EReal :=
  max (((∑ a : Fin 128, x a * Wx a k) + (∑ a : Fin 128, y a * Wy a k)) + b k) z

/-- The output entry in column `j`. -/
def entry {n : ℕ} (x y : Fin 128 → EReal) (Wx Wy : Fin 128 → Fin 128 → EReal) (b : Fin 128 → EReal) (z : EReal)
    (W2 : Fin 128 → Fin n → EReal) (b2 : Fin n → EReal) (j : Fin n) : EReal :=
  (∑ k : Fin 128, hidden x y Wx Wy b z k * W2 k j) + b2 j

/-- A sum over `Fin 256` splits at 128: the low half and the high half. -/
theorem sum_split (g : Fin 256 → EReal) :
    ∑ k : Fin 256, g k
      = (∑ a : Fin 128, g ⟨a.val, by have := a.isLt; omega⟩) + ∑ a : Fin 128, g ⟨128 + a.val, by have := a.isLt; omega⟩ := by
  exact Fin.sum_univ_add (fun k : Fin (128 + 128) => g k)

/-- The joining law: a row that is `x` below 128 and `y` from 128 on, contracted against `W`, is the two
    half-contractions added. -/
theorem sum_concat (f : Fin 256 → EReal) (x y : Fin 128 → EReal) (W : Fin 256 → EReal)
    (hlo : ∀ a : Fin 128, f ⟨a.val, by have := a.isLt; omega⟩ = x a)
    (hhi : ∀ a : Fin 128, f ⟨128 + a.val, by have := a.isLt; omega⟩ = y a) :
    ∑ k : Fin 256, f k * W k
      = (∑ a : Fin 128, x a * W ⟨a.val, by have := a.isLt; omega⟩)
        + ∑ a : Fin 128, y a * W ⟨128 + a.val, by have := a.isLt; omega⟩ := by
  rw [sum_split]
  refine congrArg₂ (· + ·) (Finset.sum_congr rfl fun a _ => ?_) (Finset.sum_congr rfl fun a _ => ?_)
  · rw [hlo]
  · rw [hhi]

end Cert.Perceptron

end
-- ==== Proof.BlockValue.lean ====
/-
  What one grid point of each kernel computes, entry by entry, at the ideal instance.

  A block of 5000 rows is processed at a time.  Row `p` of the output block depends only on row `p` of the two
  input blocks: entry `(p, q)` is the perceptron entry (`Perceptron.entry`) of those two rows, with the two
  128 × 128 first-layer weight blocks, the bias row, the rectifier threshold `0`, and the second layer.
  A change of float format is the identity on the extended reals, a matrix product into a zero accumulator is
  the plain sum over the contracted coordinate, and a one-row array broadcast over the block reads its single row.
-/
import proofs.«156553_j49220325212176_1_alg».proof.Proof.Gen.KernelIdeal.Skeleton
import proofs.«156553_j49220325212176_1_alg».proof.Proof.Perceptron
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Perceptron

/-! ## The two matrix products, read at an entry -/

theorem mm128_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm128_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 block, into the zero accumulator: entry `(p, q)` is the sum over the
    shared coordinate. -/
theorem mm128_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact mm128_l0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact mm128_r1 _ _)
  rw [el, er]

theorem mm64_l0 (i : S5000x64.Idx) (c : dot_S5000x128_S128x64_S5000x64_1_0_0_1_n_n.contr.Idx) : (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm64_r1 (i : S5000x64.Idx) (c : dot_S5000x128_S128x64_S5000x64_1_0_0_1_n_n.contr.Idx) : (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A 5000 × 128 block times a 128 × 64 block, into the zero accumulator. -/
theorem mm64_apply {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact mm64_l0 _ _
      | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (dot_S5000x128_S128x64_S5000x64_1_0_0_1_n_n.rhsIdx_val_of_single rfl _ _).trans hk
      | ⟨1, _⟩ => exact mm64_r1 _ _)
  rw [el, er]

/-! ## The payloads, read at an entry -/

/-- The message kernel at one grid point: entry `(p, q)` of what it stores is the perceptron entry of row `p` of its
    two feature blocks. -/
theorem pay0_apply (x0 : Vec Ideal S5000x128 .f32) (x1 : Vec Ideal S5000x128 .f32) (x2 : Vec Ideal S128x128 .f32)
    (x3 : Vec Ideal S128x128 .f32) (x4 : Vec Ideal S1x128 .f32) (x5 : Vec Ideal S128x128 .f32) (x6 : Vec Ideal S1x128 .f32)
    (p : Fin 5000) (q : Fin 128) :
    k0_pay1 (F := Ideal) x0 x1 x2 x3 x4 x5 x6 (ix2 p q)
      = entry (fun a => x0 (ix2 p a)) (fun a => x1 (ix2 p a)) (fun a k => x2 (ix2 a k)) (fun a k => x3 (ix2 a k))
          (fun k => x4 (ix2 (0 : Fin 1) k)) (Ideal.ofBits .f32 0x00000000#32) (fun k j => x5 (ix2 k j))
          (fun j => x6 (ix2 (0 : Fin 1) j)) q := by
  unfold k0_pay1 entry Perceptron.hidden
  simp only [shapeCast_self]
  rw [addf_apply, mm128_apply, broadcastTo_1b_ab_apply]
  refine congrArg (· + _) (Finset.sum_congr rfl fun k _ => ?_)
  rw [truncf_apply, truncf_apply, maximumf_apply, addf_apply, addf_apply, mm128_apply, mm128_apply,
    broadcastTo_1b_ab_apply, broadcast_apply]
  rfl

/-- The update kernel at one grid point: the same perceptron entry, into 64 columns. -/
theorem pay1_apply (x0 : Vec Ideal S5000x128 .f32) (x1 : Vec Ideal S5000x128 .f32) (x2 : Vec Ideal S128x128 .f32)
    (x3 : Vec Ideal S128x128 .f32) (x4 : Vec Ideal S1x128 .f32) (x5 : Vec Ideal S128x64 .f32) (x6 : Vec Ideal S1x64 .f32)
    (p : Fin 5000) (q : Fin 64) :
    k1_pay1 (F := Ideal) x0 x1 x2 x3 x4 x5 x6 (ix2 p q)
      = entry (fun a => x0 (ix2 p a)) (fun a => x1 (ix2 p a)) (fun a k => x2 (ix2 a k)) (fun a k => x3 (ix2 a k))
          (fun k => x4 (ix2 (0 : Fin 1) k)) (Ideal.ofBits .f32 0x00000000#32) (fun k j => x5 (ix2 k j))
          (fun j => x6 (ix2 (0 : Fin 1) j)) q := by
  unfold k1_pay1 entry Perceptron.hidden
  simp only [shapeCast_self]
  rw [addf_apply, mm64_apply, broadcastTo_1b_ab_apply]
  refine congrArg (· + _) (Finset.sum_congr rfl fun k _ => ?_)
  rw [truncf_apply, truncf_apply, maximumf_apply, addf_apply, addf_apply, mm128_apply, mm128_apply,
    broadcastTo_1b_ab_apply, broadcast_apply]
  rfl

end Cert.KernelIdeal.Block

end
-- ==== Proof.Region0Value.lean ====
/-
  The array the first pipeline leaves in its output window, as ONE function of the arrays it reads.

  The grid has 125 points; point `t` reads rows `5000·t … 5000·t + 4999` of the two feature arrays, the whole of the
  five small arrays, and writes back rows `5000·t … 5000·t + 4999` of the output.  Row `r` of the output is therefore
  the perceptron entry of row `r` of the two feature arrays, and the 125 blocks tile the output array exactly.
-/
import proofs.«156553_j49220325212176_1_alg».proof.Proof.Gen.KernelIdeal.Frame
import proofs.«156553_j49220325212176_1_alg».proof.Proof.BlockValue

set_option maxRecDepth 16384

noncomputable section

namespace Cert.KernelIdeal.Region0

open Cert.KernelIdeal Cert.KernelIdeal.Gen Cert.KernelIdeal.Block Cert.Perceptron
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function: entry `(r, j)` is the perceptron entry of row `r` of `A0` and `A1`. -/
def arr (A0 A1 : S625000x128.Idx → EReal) (A2 A3 : S128x128.Idx → EReal) (A4 : S1x128.Idx → EReal)
    (A5 : S128x128.Idx → EReal) (A6 : S1x128.Idx → EReal) : S625000x128.Idx → EReal :=
  fun i => entry (fun a => A0 (ix2 (i 0) a)) (fun a => A1 (ix2 (i 0) a)) (fun a k => A2 (ix2 a k)) (fun a k => A3 (ix2 a k))
    (fun k => A4 (ix2 (0 : Fin 1) k)) (Ideal.ofBits .f32 0x00000000#32) (fun k j => A5 (ix2 k j))
    (fun j => A6 (ix2 (0 : Fin 1) j)) (i 1)

/-- The printed index maps over the grid: the two feature windows and the output window sit at block `t` on the
    row axis and block 0 on the column axis; the five small windows sit at block (0, 0). -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem row_lt (t : Fin cfg0.N) (p : Fin 5000) : t.val * 5000 + p.val < 625000 := by
  have hN : cfg0.N = 125 := N_0
  have h := t.isLt
  have hp := p.isLt
  omega

/-! ## Each window's block at a point, read where it sits in its array -/

theorem emb0 (t : Fin cfg0.N) (p : Fin 5000) (a : Fin 128) :
    ((cfg0.win 0).blk t).view.emb (ix2 p a) = ix2 (⟨t.val * 5000 + p.val, row_lt t p⟩ : Fin 625000) a := by
  obtain ⟨f70, f71, f00, f01, f10, f11, -⟩ := idx_facts t
  funext ax; apply Fin.ext
  match ax with
  | ⟨0, _⟩ => show win0_0.index t (0 : Fin 2) * 5000 + 1 * p.val = t.val * 5000 + p.val; rw [f00]; omega
  | ⟨1, _⟩ => show win0_0.index t (1 : Fin 2) * 128 + 1 * a.val = a.val; rw [f01]; omega
theorem blk0 (c : Dev nD) (t : Fin cfg0.N) (p : Fin 5000) (a : Fin 128) :
    iblk0 V c 0 t (ix2 p a) = V c main_v10 (ix2 (⟨t.val * 5000 + p.val, row_lt t p⟩ : Fin 625000) a) := by
  show V c main_v10 (((cfg0.win 0).blk t).view.emb (ix2 p a)) = _
  rw [emb0]

theorem emb1 (t : Fin cfg0.N) (p : Fin 5000) (a : Fin 128) :
    ((cfg0.win 1).blk t).view.emb (ix2 p a) = ix2 (⟨t.val * 5000 + p.val, row_lt t p⟩ : Fin 625000) a := by
  obtain ⟨f70, f71, f00, f01, f10, f11, -⟩ := idx_facts t
  funext ax; apply Fin.ext
  match ax with
  | ⟨0, _⟩ => show win0_1.index t (0 : Fin 2) * 5000 + 1 * p.val = t.val * 5000 + p.val; rw [f10]; omega
  | ⟨1, _⟩ => show win0_1.index t (1 : Fin 2) * 128 + 1 * a.val = a.val; rw [f11]; omega
theorem blk1 (c : Dev nD) (t : Fin cfg0.N) (p : Fin 5000) (a : Fin 128) :
    iblk0 V c 1 t (ix2 p a) = V c main_v17 (ix2 (⟨t.val * 5000 + p.val, row_lt t p⟩ : Fin 625000) a) := by
  show V c main_v17 (((cfg0.win 1).blk t).view.emb (ix2 p a)) = _
  rw [emb1]

theorem emb2 (t : Fin cfg0.N) (a : Fin 128) (b : Fin 128) :
    ((cfg0.win 2).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win0_2.index t (0 : Fin 2) * 128 + 1 * a.val = a.val; rw [f20]; omega
  | ⟨1, _⟩ => show win0_2.index t (1 : Fin 2) * 128 + 1 * b.val = b.val; rw [f21]; omega
theorem blk2 (c : Dev nD) (t : Fin cfg0.N) (a : Fin 128) (b : Fin 128) :
    iblk0 V c 2 t (ix2 a b) = V c main_v18 (ix2 a b) := by
  show V c main_v18 (((cfg0.win 2).blk t).view.emb (ix2 a b)) = _
  rw [emb2]

theorem emb3 (t : Fin cfg0.N) (a : Fin 128) (b : Fin 128) :
    ((cfg0.win 3).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win0_3.index t (0 : Fin 2) * 128 + 1 * a.val = a.val; rw [f30]; omega
  | ⟨1, _⟩ => show win0_3.index t (1 : Fin 2) * 128 + 1 * b.val = b.val; rw [f31]; omega
theorem blk3 (c : Dev nD) (t : Fin cfg0.N) (a : Fin 128) (b : Fin 128) :
    iblk0 V c 3 t (ix2 a b) = V c main_v19 (ix2 a b) := by
  show V c main_v19 (((cfg0.win 3).blk t).view.emb (ix2 a b)) = _
  rw [emb3]

theorem emb4 (t : Fin cfg0.N) (a : Fin 1) (b : Fin 128) :
    ((cfg0.win 4).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win0_4.index t (0 : Fin 2) * 1 + 1 * a.val = a.val; rw [f40]; omega
  | ⟨1, _⟩ => show win0_4.index t (1 : Fin 2) * 128 + 1 * b.val = b.val; rw [f41]; omega
theorem blk4 (c : Dev nD) (t : Fin cfg0.N) (a : Fin 1) (b : Fin 128) :
    iblk0 V c 4 t (ix2 a b) = V c main_v20 (ix2 a b) := by
  show V c main_v20 (((cfg0.win 4).blk t).view.emb (ix2 a b)) = _
  rw [emb4]

theorem emb5 (t : Fin cfg0.N) (a : Fin 128) (b : Fin 128) :
    ((cfg0.win 5).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win0_5.index t (0 : Fin 2) * 128 + 1 * a.val = a.val; rw [f50]; omega
  | ⟨1, _⟩ => show win0_5.index t (1 : Fin 2) * 128 + 1 * b.val = b.val; rw [f51]; omega
theorem blk5 (c : Dev nD) (t : Fin cfg0.N) (a : Fin 128) (b : Fin 128) :
    iblk0 V c 5 t (ix2 a b) = V c main_arg4 (ix2 a b) := by
  show V c main_arg4 (((cfg0.win 5).blk t).view.emb (ix2 a b)) = _
  rw [emb5]

theorem emb6 (t : Fin cfg0.N) (a : Fin 1) (b : Fin 128) :
    ((cfg0.win 6).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win0_6.index t (0 : Fin 2) * 1 + 1 * a.val = a.val; rw [f60]; omega
  | ⟨1, _⟩ => show win0_6.index t (1 : Fin 2) * 128 + 1 * b.val = b.val; rw [f61]; omega
theorem blk6 (c : Dev nD) (t : Fin cfg0.N) (a : Fin 1) (b : Fin 128) :
    iblk0 V c 6 t (ix2 a b) = V c main_v21 (ix2 a b) := by
  show V c main_v21 (((cfg0.win 6).blk t).view.emb (ix2 a b)) = _
  rw [emb6]

theorem emb7 (t : Fin cfg0.N) (p : Fin 5000) (a : Fin 128) :
    ((cfg0.win 7).blk t).view.emb (ix2 p a) = ix2 (⟨t.val * 5000 + p.val, row_lt t p⟩ : Fin 625000) a := by
  obtain ⟨f70, f71, -⟩ := idx_facts t
  funext ax; apply Fin.ext
  match ax with
  | ⟨0, _⟩ => show win0_7.index t (0 : Fin 2) * 5000 + 1 * p.val = t.val * 5000 + p.val; rw [f70]; omega
  | ⟨1, _⟩ => show win0_7.index t (1 : Fin 2) * 128 + 1 * a.val = a.val; rw [f71]; omega

/-! ## From blocks to the array -/

/-- What point `t` writes back is block `t` of `arr` of the arrays as the pipeline finds them. -/
theorem flushed_eq (c : Dev nD) (t : Fin cfg0.N) :
    (dat0 V c).flushed 7 t = ((cfg0.win 7).blk t).view.read (Elt Ideal)
      (arr (V c main_v10) (V c main_v17) (V c main_v18) (V c main_v19) (V c main_v20) (V c main_arg4) (V c main_v21)) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (iblk0 V c 6 t) (ix2 p q)
    = arr (V c main_v10) (V c main_v17) (V c main_v18) (V c main_v19) (V c main_v20) (V c main_arg4) (V c main_v21)
        (((cfg0.win 7).blk t).view.emb (ix2 p q))
  rw [emb7]
  refine (pay0_apply (iblk0 V c 0 t) (iblk0 V c 1 t) (iblk0 V c 2 t) (iblk0 V c 3 t) (iblk0 V c 4 t) (iblk0 V c 5 t) (iblk0 V c 6 t) p q).trans ?_
  unfold arr
  simp only [blk0, blk1, blk2, blk3, blk4, blk5, blk6]

/-- An index of the output array is in point `t`'s block iff each coordinate is in the block's range. -/
theorem mem_blk (t : Fin cfg0.N) (i : S625000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v22).slice (win0_7.rect t)).set ↔ _
  rw [View.set_slice_whole, Rect.mem_set_unit]
  exact Iff.rfl

/-- The blocks tile the output: row `r` lies in the block of point `r / 5000`. -/
theorem cover (i : S625000x128.Idx) :
    ∃ t : Fin cfg0.N, (cfg0.win 7).flush t = true ∧ i ∈ ((cfg0.win 7).blk t).view.set := by
  have hi0 : (i 0).val < 625000 := (i 0).isLt
  have hi1 : (i 1).val < 128 := (i 1).isLt
  have hN : cfg0.N = 125 := N_0
  let t : Fin cfg0.N := ⟨(i 0).val / 5000, by rw [hN]; omega⟩
  obtain ⟨f70, f71, -⟩ := idx_facts t
  have ht : t.val = (i 0).val / 5000 := rfl
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; rw [f70, ht]; omega
  | ⟨1, _⟩ => show win0_7.index t (1 : Fin 2) * 128 ≤ (i 1).val ∧ (i 1).val < win0_7.index t (1 : Fin 2) * 128 + 128; rw [f71]; omega

/-- The output array after the pipeline: `arr` of the arrays it read, everywhere. -/
theorem final (c : Dev nD) :
    (dat0 V c).arrAt 7 cfg0.N
      = arr (V c main_v10) (V c main_v17) (V c main_v18) (V c main_v19) (V c main_v20) (V c main_arg4) (V c main_v21) :=
  (dat0 V c).arrAt_eq_of_cover 7 _ (fun t _ => flushed_eq V c t) cover

end Cert.KernelIdeal.Region0

end
-- ==== Proof.Region1Value.lean ====
/-
  The array the second pipeline leaves in its output window, as ONE function of the arrays it reads.

  The grid has 10 points; point `t` reads rows `5000·t … 5000·t + 4999` of the two feature arrays, the whole of the
  five small arrays, and writes back rows `5000·t … 5000·t + 4999` of the output.  Row `r` of the output is therefore
  the perceptron entry of row `r` of the two feature arrays, and the 10 blocks tile the output array exactly.
-/
import proofs.«156553_j49220325212176_1_alg».proof.Proof.Gen.KernelIdeal.Frame
import proofs.«156553_j49220325212176_1_alg».proof.Proof.BlockValue

set_option maxRecDepth 16384

noncomputable section

namespace Cert.KernelIdeal.Region1

open Cert.KernelIdeal Cert.KernelIdeal.Gen Cert.KernelIdeal.Block Cert.Perceptron
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function: entry `(r, j)` is the perceptron entry of row `r` of `A0` and `A1`. -/
def arr (A0 A1 : S50000x128.Idx → EReal) (A2 A3 : S128x128.Idx → EReal) (A4 : S1x128.Idx → EReal)
    (A5 : S128x64.Idx → EReal) (A6 : S1x64.Idx → EReal) : S50000x64.Idx → EReal :=
  fun i => entry (fun a => A0 (ix2 (i 0) a)) (fun a => A1 (ix2 (i 0) a)) (fun a k => A2 (ix2 a k)) (fun a k => A3 (ix2 a k))
    (fun k => A4 (ix2 (0 : Fin 1) k)) (Ideal.ofBits .f32 0x00000000#32) (fun k j => A5 (ix2 k j))
    (fun j => A6 (ix2 (0 : Fin 1) j)) (i 1)

/-- The printed index maps over the grid: the two feature windows and the output window sit at block `t` on the
    row axis and block 0 on the column axis; the five small windows sit at block (0, 0). -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem row_lt (t : Fin cfg1.N) (p : Fin 5000) : t.val * 5000 + p.val < 50000 := by
  have hN : cfg1.N = 10 := N_1
  have h := t.isLt
  have hp := p.isLt
  omega

/-! ## Each window's block at a point, read where it sits in its array -/

theorem emb0 (t : Fin cfg1.N) (p : Fin 5000) (a : Fin 128) :
    ((cfg1.win 0).blk t).view.emb (ix2 p a) = ix2 (⟨t.val * 5000 + p.val, row_lt t p⟩ : Fin 50000) a := by
  obtain ⟨f70, f71, f00, f01, f10, f11, -⟩ := idx_facts t
  funext ax; apply Fin.ext
  match ax with
  | ⟨0, _⟩ => show win1_0.index t (0 : Fin 2) * 5000 + 1 * p.val = t.val * 5000 + p.val; rw [f00]; omega
  | ⟨1, _⟩ => show win1_0.index t (1 : Fin 2) * 128 + 1 * a.val = a.val; rw [f01]; omega
theorem blk0 (c : Dev nD) (t : Fin cfg1.N) (p : Fin 5000) (a : Fin 128) :
    iblk1 V c 0 t (ix2 p a) = V c main_arg0 (ix2 (⟨t.val * 5000 + p.val, row_lt t p⟩ : Fin 50000) a) := by
  show V c main_arg0 (((cfg1.win 0).blk t).view.emb (ix2 p a)) = _
  rw [emb0]

theorem emb1 (t : Fin cfg1.N) (p : Fin 5000) (a : Fin 128) :
    ((cfg1.win 1).blk t).view.emb (ix2 p a) = ix2 (⟨t.val * 5000 + p.val, row_lt t p⟩ : Fin 50000) a := by
  obtain ⟨f70, f71, f00, f01, f10, f11, -⟩ := idx_facts t
  funext ax; apply Fin.ext
  match ax with
  | ⟨0, _⟩ => show win1_1.index t (0 : Fin 2) * 5000 + 1 * p.val = t.val * 5000 + p.val; rw [f10]; omega
  | ⟨1, _⟩ => show win1_1.index t (1 : Fin 2) * 128 + 1 * a.val = a.val; rw [f11]; omega
theorem blk1 (c : Dev nD) (t : Fin cfg1.N) (p : Fin 5000) (a : Fin 128) :
    iblk1 V c 1 t (ix2 p a) = V c main_v25 (ix2 (⟨t.val * 5000 + p.val, row_lt t p⟩ : Fin 50000) a) := by
  show V c main_v25 (((cfg1.win 1).blk t).view.emb (ix2 p a)) = _
  rw [emb1]

theorem emb2 (t : Fin cfg1.N) (a : Fin 128) (b : Fin 128) :
    ((cfg1.win 2).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win1_2.index t (0 : Fin 2) * 128 + 1 * a.val = a.val; rw [f20]; omega
  | ⟨1, _⟩ => show win1_2.index t (1 : Fin 2) * 128 + 1 * b.val = b.val; rw [f21]; omega
theorem blk2 (c : Dev nD) (t : Fin cfg1.N) (a : Fin 128) (b : Fin 128) :
    iblk1 V c 2 t (ix2 a b) = V c main_v26 (ix2 a b) := by
  show V c main_v26 (((cfg1.win 2).blk t).view.emb (ix2 a b)) = _
  rw [emb2]

theorem emb3 (t : Fin cfg1.N) (a : Fin 128) (b : Fin 128) :
    ((cfg1.win 3).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win1_3.index t (0 : Fin 2) * 128 + 1 * a.val = a.val; rw [f30]; omega
  | ⟨1, _⟩ => show win1_3.index t (1 : Fin 2) * 128 + 1 * b.val = b.val; rw [f31]; omega
theorem blk3 (c : Dev nD) (t : Fin cfg1.N) (a : Fin 128) (b : Fin 128) :
    iblk1 V c 3 t (ix2 a b) = V c main_v27 (ix2 a b) := by
  show V c main_v27 (((cfg1.win 3).blk t).view.emb (ix2 a b)) = _
  rw [emb3]

theorem emb4 (t : Fin cfg1.N) (a : Fin 1) (b : Fin 128) :
    ((cfg1.win 4).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win1_4.index t (0 : Fin 2) * 1 + 1 * a.val = a.val; rw [f40]; omega
  | ⟨1, _⟩ => show win1_4.index t (1 : Fin 2) * 128 + 1 * b.val = b.val; rw [f41]; omega
theorem blk4 (c : Dev nD) (t : Fin cfg1.N) (a : Fin 1) (b : Fin 128) :
    iblk1 V c 4 t (ix2 a b) = V c main_v28 (ix2 a b) := by
  show V c main_v28 (((cfg1.win 4).blk t).view.emb (ix2 a b)) = _
  rw [emb4]

theorem emb5 (t : Fin cfg1.N) (a : Fin 128) (b : Fin 64) :
    ((cfg1.win 5).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win1_5.index t (0 : Fin 2) * 128 + 1 * a.val = a.val; rw [f50]; omega
  | ⟨1, _⟩ => show win1_5.index t (1 : Fin 2) * 64 + 1 * b.val = b.val; rw [f51]; omega
theorem blk5 (c : Dev nD) (t : Fin cfg1.N) (a : Fin 128) (b : Fin 64) :
    iblk1 V c 5 t (ix2 a b) = V c main_arg8 (ix2 a b) := by
  show V c main_arg8 (((cfg1.win 5).blk t).view.emb (ix2 a b)) = _
  rw [emb5]

theorem emb6 (t : Fin cfg1.N) (a : Fin 1) (b : Fin 64) :
    ((cfg1.win 6).blk t).view.emb (ix2 a b) = ix2 a b := by
  obtain ⟨f70, f71, f00, f01, f10, f11, f20, f21, f30, f31, f40, f41, f50, f51, f60, f61⟩ := idx_facts t
  funext ax; apply Fin.ext
  match ax with
  | ⟨0, _⟩ => show win1_6.index t (0 : Fin 2) * 1 + 1 * a.val = a.val; rw [f60]; omega
  | ⟨1, _⟩ => show win1_6.index t (1 : Fin 2) * 64 + 1 * b.val = b.val; rw [f61]; omega
theorem blk6 (c : Dev nD) (t : Fin cfg1.N) (a : Fin 1) (b : Fin 64) :
    iblk1 V c 6 t (ix2 a b) = V c main_v29 (ix2 a b) := by
  show V c main_v29 (((cfg1.win 6).blk t).view.emb (ix2 a b)) = _
  rw [emb6]

theorem emb7 (t : Fin cfg1.N) (p : Fin 5000) (a : Fin 64) :
    ((cfg1.win 7).blk t).view.emb (ix2 p a) = ix2 (⟨t.val * 5000 + p.val, row_lt t p⟩ : Fin 50000) a := by
  obtain ⟨f70, f71, -⟩ := idx_facts t
  funext ax; apply Fin.ext
  match ax with
  | ⟨0, _⟩ => show win1_7.index t (0 : Fin 2) * 5000 + 1 * p.val = t.val * 5000 + p.val; rw [f70]; omega
  | ⟨1, _⟩ => show win1_7.index t (1 : Fin 2) * 64 + 1 * a.val = a.val; rw [f71]; omega

/-! ## From blocks to the array -/

/-- What point `t` writes back is block `t` of `arr` of the arrays as the pipeline finds them. -/
theorem flushed_eq (c : Dev nD) (t : Fin cfg1.N) :
    (dat1 V c).flushed 7 t = ((cfg1.win 7).blk t).view.read (Elt Ideal)
      (arr (V c main_arg0) (V c main_v25) (V c main_v26) (V c main_v27) (V c main_v28) (V c main_arg8) (V c main_v29)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (iblk1 V c 5 t) (iblk1 V c 6 t) (ix2 p q)
    = arr (V c main_arg0) (V c main_v25) (V c main_v26) (V c main_v27) (V c main_v28) (V c main_arg8) (V c main_v29)
        (((cfg1.win 7).blk t).view.emb (ix2 p q))
  rw [emb7]
  refine (pay1_apply (iblk1 V c 0 t) (iblk1 V c 1 t) (iblk1 V c 2 t) (iblk1 V c 3 t) (iblk1 V c 4 t) (iblk1 V c 5 t) (iblk1 V c 6 t) p q).trans ?_
  unfold arr
  simp only [blk0, blk1, blk2, blk3, blk4, blk5, blk6]

/-- An index of the output array is in point `t`'s block iff each coordinate is in the block's range. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v30).slice (win1_7.rect t)).set ↔ _
  rw [View.set_slice_whole, Rect.mem_set_unit]
  exact Iff.rfl

/-- The blocks tile the output: row `r` lies in the block of point `r / 5000`. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨f70, f71, -⟩ := idx_facts t
  have ht : t.val = (i 0).val / 5000 := rfl
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; rw [f70, ht]; omega
  | ⟨1, _⟩ => show win1_7.index t (1 : Fin 2) * 64 ≤ (i 1).val ∧ (i 1).val < win1_7.index t (1 : Fin 2) * 64 + 64; rw [f71]; omega

/-- The output array after the pipeline: `arr` of the arrays it read, everywhere. -/
theorem final (c : Dev nD) :
    (dat1 V c).arrAt 7 cfg1.N
      = arr (V c main_arg0) (V c main_v25) (V c main_v26) (V c main_v27) (V c main_v28) (V c main_arg8) (V c main_v29) :=
  (dat1 V c).arrAt_eq_of_cover 7 _ (fun t _ => flushed_eq V c t) cover

end Cert.KernelIdeal.Region1

end
-- ==== Proof.KernelValue.lean ====
/-
  The result of the whole program as one function of its ten argument arrays.

  Reading the boundaries of the run from the end: the result array is the second pipeline's output, the layer pair
  applied to the node features and the aggregated messages; the aggregated messages are the scatter-add, by the
  target index of each edge, of the first pipeline's output into a zero array; the first pipeline's output is the
  layer pair applied to the node features gathered at each edge's source and at its target.  The host operations
  between the pipelines only slice the weights, reshape the biases, wrap negative indices and gather and scatter;
  each is read off the stretch it belongs to, and an array no operation writes is still the launch memory.
-/
import proofs.«156553_j49220325212176_1_alg».proof.Proof.KernelRun
import proofs.«156553_j49220325212176_1_alg».proof.Proof.Region0Value
import proofs.«156553_j49220325212176_1_alg».proof.Proof.Region1Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-! ## The host stretches' terms -/

/-- Row `0` of the edge array as a vector: each edge's source. -/
def src (e : (⟨S2x625000, .i32⟩ : BufTy).Contents (Elt Ideal)) : (⟨S625000, .i32⟩ : BufTy).Contents (Elt Ideal) :=
  shapeCast _ (extractStridedSlice S1x625000 ![0, 0] e slices_S2x625000_S1x625000_0_0) shapeCasts_S1x625000_S625000
/-- Row `1` of the edge array as a vector: each edge's target. -/
def tgt (e : (⟨S2x625000, .i32⟩ : BufTy).Contents (Elt Ideal)) : (⟨S625000, .i32⟩ : BufTy).Contents (Elt Ideal) :=
  shapeCast _ (extractStridedSlice S1x625000 ![1, 0] e slices_S2x625000_S1x625000_1_0) shapeCasts_S1x625000_S625000
/-- A negative index counted from the end (50000 added), then the vector as a one-column matrix of gather indices. -/
def wrap (v : (⟨S625000, .i32⟩ : BufTy).Contents (Elt Ideal)) : (⟨S625000x1, .i32⟩ : BufTy).Contents (Elt Ideal) :=
  broadcastInDim S625000x1 ![0] bcast_S625000_S625000x1_0
    (select (cmpi .slt v (broadcastInDim S625000 ![] bcast_S_S625000 (constantI S_ 32 0#32)))
      (addi v (broadcastInDim S625000 ![] bcast_S_S625000 (constantI S_ 32 50000#32))) v)
/-- The node features gathered row by row at a column of indices. -/
def gathered (x : (⟨S50000x128, .f32⟩ : BufTy).Contents (Elt Ideal)) (ix : (⟨S625000x1, .i32⟩ : BufTy).Contents (Elt Ideal)) :
    (⟨S625000x128, .f32⟩ : BufTy).Contents (Elt Ideal) :=
  Host.gather gather_S50000x128_S625000x1_S625000x128_1_0_n_n_0_1_1128 x ix
/-- The two halves of a first-layer weight, and a bias as a one-row matrix. -/
def lo (W : (⟨S256x128, .f32⟩ : BufTy).Contents (Elt Ideal)) : (⟨S128x128, .f32⟩ : BufTy).Contents (Elt Ideal) :=
  extractStridedSlice S128x128 ![0, 0] W slices_S256x128_S128x128_0_0
def hi (W : (⟨S256x128, .f32⟩ : BufTy).Contents (Elt Ideal)) : (⟨S128x128, .f32⟩ : BufTy).Contents (Elt Ideal) :=
  extractStridedSlice S128x128 ![128, 0] W slices_S256x128_S128x128_128_0
def row128 (b : (⟨S128, .f32⟩ : BufTy).Contents (Elt Ideal)) : (⟨S1x128, .f32⟩ : BufTy).Contents (Elt Ideal) :=
  shapeCast _ b shapeCasts_S128_S1x128
def row64 (b : (⟨S64, .f32⟩ : BufTy).Contents (Elt Ideal)) : (⟨S1x64, .f32⟩ : BufTy).Contents (Elt Ideal) :=
  shapeCast _ b shapeCasts_S64_S1x64
/-- The scatter-add of per-edge rows into a zero array, by each edge's target. -/
def scattered (e : (⟨S2x625000, .i32⟩ : BufTy).Contents (Elt Ideal)) (u : (⟨S625000x128, .f32⟩ : BufTy).Contents (Elt Ideal)) :
    (⟨S50000x128, .f32⟩ : BufTy).Contents (Elt Ideal) :=
  Host.scatterAdd (F := Ideal) scatter_S50000x128_S625000x1_S625000x128_1_0_0_1
    (broadcastInDim S50000x128 ![] bcast_S_S50000x128 (constant (F := Ideal) S_ .f32 0x00000000#32))
    (broadcastInDim S625000x1 ![0] bcast_S625000_S625000x1_0 (tgt e)) u

/-- The per-edge messages. -/
def messages (x0 : (⟨S50000x128, .f32⟩ : BufTy).Contents (Elt Ideal)) (x1 : (⟨S2x625000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    (⟨S625000x128, .f32⟩ : BufTy).Contents (Elt Ideal) :=
  Region0.arr (gathered x0 (wrap (src x1))) (gathered x0 (wrap (tgt x1))) (lo x2) (hi x2) (row128 x3) x4 (row128 x5)

/-- The program's result. -/
def result (x0 : (⟨S50000x128, .f32⟩ : BufTy).Contents (Elt Ideal)) (x1 : (⟨S2x625000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    (⟨S50000x64, .f32⟩ : BufTy).Contents (Elt Ideal) :=
  Region1.arr x0 (scattered x1 (messages x0 x1 x2 x3 x4 x5)) (lo x6) (hi x6) (row128 x7) x8 (row64 x9)

variable (m : (ℓ : Loc nD τ sig) → Buf (Elt Ideal) ℓ) (ρ : Dev nD → PrngReg)

/-! ## The first stretch: what the first pipeline finds -/

theorem V1_v10 (c : Dev nD) : V1 m ρ c main_v10 = gathered (m ((c : Thread nD τ).loc main_arg0)) (wrap (src (m ((c : Thread nD τ).loc main_arg1)))) := by
  show StableHlo.after hostOps0 (W0 m ρ c) (Proc.devRef .tc main_v10) = _
  after_results
  rfl
theorem V1_v17 (c : Dev nD) : V1 m ρ c main_v17 = gathered (m ((c : Thread nD τ).loc main_arg0)) (wrap (tgt (m ((c : Thread nD τ).loc main_arg1)))) := by
  show StableHlo.after hostOps0 (W0 m ρ c) (Proc.devRef .tc main_v17) = _
  after_results
  rfl
theorem V1_v18 (c : Dev nD) : V1 m ρ c main_v18 = lo (m ((c : Thread nD τ).loc main_arg2)) := by
  show StableHlo.after hostOps0 (W0 m ρ c) (Proc.devRef .tc main_v18) = _
  after_results
  rfl
theorem V1_v19 (c : Dev nD) : V1 m ρ c main_v19 = hi (m ((c : Thread nD τ).loc main_arg2)) := by
  show StableHlo.after hostOps0 (W0 m ρ c) (Proc.devRef .tc main_v19) = _
  after_results
  rfl
theorem V1_v20 (c : Dev nD) : V1 m ρ c main_v20 = row128 (m ((c : Thread nD τ).loc main_arg3)) := by
  show StableHlo.after hostOps0 (W0 m ρ c) (Proc.devRef .tc main_v20) = _
  after_results
  rfl
theorem V1_arg4 (c : Dev nD) : V1 m ρ c main_arg4 = (m ((c : Thread nD τ).loc main_arg4)) := by
  show StableHlo.after hostOps0 (W0 m ρ c) (Proc.devRef .tc main_arg4) = _
  after_results
theorem V1_v21 (c : Dev nD) : V1 m ρ c main_v21 = row128 (m ((c : Thread nD τ).loc main_arg5)) := by
  show StableHlo.after hostOps0 (W0 m ρ c) (Proc.devRef .tc main_v21) = _
  after_results
  rfl

/-- The first pipeline's output array: the messages. -/
theorem messages_eq (c : Dev nD) :
    (dat0 (V1 m ρ) c).arrAt 7 cfg0.N = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Region0.final (V1 m ρ) c, V1_v10, V1_v17, V1_v18, V1_v19, V1_v20, V1_arg4, V1_v21]
  rfl

/-! ## Across the first pipeline: its output array is replaced, everything else is as it found it -/

theorem W2_v22 (c : Dev nD) : W2 m ρ c (Proc.devRef .tc main_v22) = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 7).trans (messages_eq m ρ c)

theorem W2_v3 (c : Dev nD) : W2 m ρ c (Proc.devRef .tc main_v3) = tgt (m ((c : Thread nD τ).loc main_arg1)) := by
  rw [W2_of_ne m ρ c main_v3 (by decide)]
  show StableHlo.after hostOps0 (W0 m ρ c) (Proc.devRef .tc main_v3) = _
  after_results
  rfl

theorem W2_arg0 (c : Dev nD) : W2 m ρ c (Proc.devRef .tc main_arg0) = (m ((c : Thread nD τ).loc main_arg0)) := by
  rw [W2_of_ne m ρ c main_arg0 (by decide)]
  show StableHlo.after hostOps0 (W0 m ρ c) (Proc.devRef .tc main_arg0) = _
  after_results

theorem W2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results

theorem W2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results

theorem W2_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results

theorem W2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results

/-! ## The second stretch: what the second pipeline finds -/

theorem V3_arg0 (c : Dev nD) : V3 m ρ c main_arg0 = (m ((c : Thread nD τ).loc main_arg0)) := by
  show StableHlo.after hostOps1 (W2 m ρ c) (Proc.devRef .tc main_arg0) = _
  after_results
  exact W2_arg0 m ρ c
theorem V3_v25 (c : Dev nD) : V3 m ρ c main_v25 = scattered (m ((c : Thread nD τ).loc main_arg1)) (messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show StableHlo.after hostOps1 (W2 m ρ c) (Proc.devRef .tc main_v25) = _
  after_results
  rw [W2_v3, W2_v22]
  rfl
theorem V3_v26 (c : Dev nD) : V3 m ρ c main_v26 = lo (m ((c : Thread nD τ).loc main_arg6)) := by
  show StableHlo.after hostOps1 (W2 m ρ c) (Proc.devRef .tc main_v26) = _
  after_results
  rw [W2_arg6]
  rfl
theorem V3_v27 (c : Dev nD) : V3 m ρ c main_v27 = hi (m ((c : Thread nD τ).loc main_arg6)) := by
  show StableHlo.after hostOps1 (W2 m ρ c) (Proc.devRef .tc main_v27) = _
  after_results
  rw [W2_arg6]
  rfl
theorem V3_v28 (c : Dev nD) : V3 m ρ c main_v28 = row128 (m ((c : Thread nD τ).loc main_arg7)) := by
  show StableHlo.after hostOps1 (W2 m ρ c) (Proc.devRef .tc main_v28) = _
  after_results
  rw [W2_arg7]
  rfl
theorem V3_arg8 (c : Dev nD) : V3 m ρ c main_arg8 = (m ((c : Thread nD τ).loc main_arg8)) := by
  show StableHlo.after hostOps1 (W2 m ρ c) (Proc.devRef .tc main_arg8) = _
  after_results
  exact W2_arg8 m ρ c
theorem V3_v29 (c : Dev nD) : V3 m ρ c main_v29 = row64 (m ((c : Thread nD τ).loc main_arg9)) := by
  show StableHlo.after hostOps1 (W2 m ρ c) (Proc.devRef .tc main_v29) = _
  after_results
  rw [W2_arg9]
  rfl

/-- The second pipeline's output array: the program's result, as a function of the ten arguments. -/
theorem result_eq (c : Dev nD) :
    (dat1 (V3 m ρ) c).arrAt 7 cfg1.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Region1.final (V3 m ρ) c, V3_arg0, V3_v25, V3_v26, V3_v27, V3_v28, V3_arg8, V3_v29]
  rfl

/-! ## The run, read -/

/-- Every weakly fair execution terminates without a fault, the result array at `result` of the arguments as
    launched and the arguments unchanged. -/
theorem run : θ_run defs (onTc (τ := τ) (main (F := Ideal))) ⟨m, fun _ => 0, ρ⟩ (fun r => ∀ c : Dev nD,
      r.2.mem ((c.tc : Thread nD τ).loc main_v30) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (RunValue.run m ρ)

end Cert.KernelIdeal.Whole

end
-- ==== Proof.Layers.lean ====
/-
  One perceptron layer pair on whole arrays, and the three layout facts that let both programs be read against it.

  `layer X Y W b W2 b2` is the array whose entry `(r, j)` is the perceptron entry of row `r` of `X` and row `r`
  of `Y`: the first-layer weight `W` is one 256 × 128 array, its rows 0 … 127 multiplying `X`'s row and its rows
  128 … 255 multiplying `Y`'s row; the biases `b`, `b2` are plain vectors.  One program slices `W` into its two
  halves and reshapes each bias to a one-row matrix before it computes; the other concatenates `X` and `Y` along
  the columns and multiplies by `W` whole.  The layout facts: the low half-slice of `W` at `(a, k)` is `W (a, k)`,
  the high half-slice is `W (128 + a, k)`, and a vector reshaped to one row reads the vector.
-/
import proofs.«156553_j49220325212176_1_alg».proof.Proof.Perceptron
import Idealize.ShloMosaic.Lib.ValueIdx
import Idealize.ShloMosaic.Lib.Pipeline.Value
import Idealize.ShloMosaic.PureOps.Ideal

noncomputable section

namespace Cert.Layers

open Idealize.ShloMosaic Idealize.ShloMosaic.ValueIdx Cert.Perceptron

/-- The layer pair as one function of its six arrays. -/
def layer {R n : ℕ} (X Y : (⟨2, ![R, 128]⟩ : Shape).Idx → EReal) (W : (⟨2, ![256, 128]⟩ : Shape).Idx → EReal)
    (b : (⟨1, ![128]⟩ : Shape).Idx → EReal) (W2 : (⟨2, ![128, n]⟩ : Shape).Idx → EReal)
    (b2 : (⟨1, ![n]⟩ : Shape).Idx → EReal) : (⟨2, ![R, n]⟩ : Shape).Idx → EReal :=
  fun i => entry (fun a => X (ix2 (i 0) a)) (fun a => Y (ix2 (i 0) a))
    (fun a k => W (ix2 (⟨a.val, by have := a.isLt; omega⟩ : Fin 256) k))
    (fun a k => W (ix2 (⟨128 + a.val, by have := a.isLt; omega⟩ : Fin 256) k))
    (fun k => b (ix1 k)) (Ideal.ofBits .f32 0x00000000#32) (fun k j => W2 (ix2 k j)) (fun j => b2 (ix1 j)) (i 1)

variable {α : Type}

/-- Rows 0 … 127 of a 256-row array, read at `(a, k)`. -/
theorem slice_lo (W : (⟨2, ![256, 128]⟩ : Shape).Idx → α)
    (h : (⟨2, ![256, 128]⟩ : Shape).Slices ![0, 0] ⟨2, ![128, 128]⟩) (a k : Fin 128) :
    extractStridedSlice ⟨2, ![128, 128]⟩ ![0, 0] W h (ix2 a k) = W (ix2 (⟨a.val, by have := a.isLt; omega⟩ : Fin 256) k) :=
  extractStridedSlice_apply ![0, 0] W h (ix2 a k) (ix2 (⟨a.val, by have := a.isLt; omega⟩ : Fin 256) k) (fun ax => match ax with
    | ⟨0, _⟩ => by show a.val = 0 + a.val; omega
    | ⟨1, _⟩ => by show k.val = 0 + k.val; omega)

/-- Rows 128 … 255 of a 256-row array, read at `(a, k)`. -/
theorem slice_hi (W : (⟨2, ![256, 128]⟩ : Shape).Idx → α)
    (h : (⟨2, ![256, 128]⟩ : Shape).Slices ![128, 0] ⟨2, ![128, 128]⟩) (a k : Fin 128) :
    extractStridedSlice ⟨2, ![128, 128]⟩ ![128, 0] W h (ix2 a k) = W (ix2 (⟨128 + a.val, by have := a.isLt; omega⟩ : Fin 256) k) :=
  extractStridedSlice_apply ![128, 0] W h (ix2 a k) (ix2 (⟨128 + a.val, by have := a.isLt; omega⟩ : Fin 256) k) (fun ax => match ax with
    | ⟨0, _⟩ => by show 128 + a.val = 128 + a.val; rfl
    | ⟨1, _⟩ => by show k.val = 0 + k.val; omega)

/-- A vector of `n` entries reshaped to a 1 × `n` matrix, read at `(0, k)`. -/
theorem row_of_vec {n : ℕ} (b : (⟨1, ![n]⟩ : Shape).Idx → α) (h : (⟨1, ![n]⟩ : Shape).ShapeCasts ⟨2, ![1, n]⟩) (k : Fin n) :
    shapeCast ⟨2, ![1, n]⟩ b h (ix2 (0 : Fin 1) k) = b (ix1 k) :=
  shapeCast_apply b h (ix2 (0 : Fin 1) k) (ix1 k) (by
    rewrite [Shape.rowMajor_val_one, Shape.rowMajor_val_two]
    show k.val = 0 * n + k.val
    rw [Nat.zero_mul, Nat.zero_add])

end Cert.Layers

end
-- ==== Proof.ReferenceValue.lean ====
/-
  The reference program's stages, read against the layer pair.

  The reference concatenates its two feature arrays along the columns into a 256-column array and multiplies it by
  the 256 × 128 weight whole.  At an entry that product is a sum over 256 coordinates of a row that is the first
  array's row on coordinates 0 … 127 and the second's on 128 … 255, so it splits into the two half-sums
  (`Perceptron.sum_concat`): only commutativity and associativity of addition on the extended reals.  The bias is
  broadcast from a vector through a one-row matrix, and the rectifier is the maximum with the zero word.
-/
import proofs.«156553_j49220325212176_1_alg».proof.Proof.Gen.ReferenceIdeal.Read
import proofs.«156553_j49220325212176_1_alg».proof.Proof.Layers

noncomputable section

namespace Cert.ReferenceIdeal.Layered

open Cert.ReferenceIdeal Cert.ReferenceIdeal.Read Cert.Layers Cert.Perceptron
open Idealize.ShloMosaic Idealize.ShloMosaic.ValueIdx

/-! ## The messages -/

theorem messages_layer_concat_lo (x0 : (⟨S50000x128, .f32⟩ : BufTy).Contents (Elt Ideal)) (x1 : (⟨S2x625000, .i32⟩ : BufTy).Contents (Elt Ideal)) (e : Fin 625000) (a : Fin 128) :
    val_main_v18 (F := Ideal) x0 x1 (ix2 e (⟨a.val, by have := a.isLt; omega⟩ : Fin 256)) = val_main_v10 (F := Ideal) x0 x1 (ix2 e a) := by
  unfold val_main_v18
  exact concatenate_pair_apply_left (t := S625000x256) (s₁ := S625000x128) (s₂ := S625000x128) 1 _ _ _ (ix2 e (⟨a.val, by have := a.isLt; omega⟩ : Fin 256)) rfl (ix2 e a)
    (fun b => match b with | ⟨0, _⟩ => rfl | ⟨1, _⟩ => rfl)

theorem messages_layer_concat_hi (x0 : (⟨S50000x128, .f32⟩ : BufTy).Contents (Elt Ideal)) (x1 : (⟨S2x625000, .i32⟩ : BufTy).Contents (Elt Ideal)) (e : Fin 625000) (a : Fin 128) :
    val_main_v18 (F := Ideal) x0 x1 (ix2 e (⟨128 + a.val, by have := a.isLt; omega⟩ : Fin 256)) = val_main_v17 (F := Ideal) x0 x1 (ix2 e a) := by
  unfold val_main_v18
  exact concatenate_pair_apply_right (t := S625000x256) (s₁ := S625000x128) (s₂ := S625000x128) 1 _ _ _ (ix2 e (⟨128 + a.val, by have := a.isLt; omega⟩ : Fin 256)) rfl rfl (ix2 e a)
    (fun b hb => match b, hb with | ⟨0, _⟩, _ => rfl | ⟨1, _⟩, hb => absurd rfl hb)
    (by show a.val + 128 = 128 + a.val; omega)

/-- The reference's per-edge messages are the layer pair of the features gathered at the sources and at the targets. -/
theorem messages_layer (x0 : (⟨S50000x128, .f32⟩ : BufTy).Contents (Elt Ideal)) (x1 : (⟨S2x625000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v27 (F := Ideal) x0 x1 x2 x3 x4 x5 = layer (val_main_v10 (F := Ideal) x0 x1) (val_main_v17 (F := Ideal) x0 x1) x2 x3 x4 x5 := by
  funext i
  obtain ⟨e, q, rfl⟩ : ∃ (e : Fin 625000) (q : Fin 128), i = ix2 e q := ⟨i 0, i 1, eq_ix2 i⟩
  rw [val_main_v27_apply, val_main_v24_apply, val_main_v26_apply, val_main_v25_apply]
  unfold layer entry
  have hl2 : ∀ k : Fin 128, lidx_main_v24 (ix2 e q) k = ix2 e k := fun k => funext fun a => Fin.ext (by
    match a with | ⟨0, _⟩ => rfl | ⟨1, _⟩ => rfl)
  have hr2 : ∀ k : Fin 128, ridx_main_v24 (ix2 e q) k = ix2 k q := fun k => funext fun a => Fin.ext (by
    match a with | ⟨0, _⟩ => rfl | ⟨1, _⟩ => rfl)
  have hb2 : idx_main_v25 (idx_main_v26 (ix2 e q)) = ix1 q := funext fun a => Fin.ext (by
    match a with | ⟨0, _⟩ => rfl)
  simp only [hl2, hr2, hb2]
  refine congrArg₂ (· + ·) (Finset.sum_congr rfl fun k _ => congrArg (· * _) ?_) rfl
  rw [val_main_v23_apply, val_main_v22_apply, val_main_v19_apply, val_main_v21_apply, val_main_v20_apply, val_main_call0_v0_apply, val_main_call0_cst_apply]
  unfold Perceptron.hidden
  have hl1 : ∀ k' : Fin 256, lidx_main_v19 (ix2 e k) k' = ix2 e k' := fun k' => funext fun a => Fin.ext (by
    match a with | ⟨0, _⟩ => rfl | ⟨1, _⟩ => rfl)
  have hr1 : ∀ k' : Fin 256, ridx_main_v19 (ix2 e k) k' = ix2 k' k := fun k' => funext fun a => Fin.ext (by
    match a with | ⟨0, _⟩ => rfl | ⟨1, _⟩ => rfl)
  have hb1 : idx_main_v20 (idx_main_v21 (ix2 e k)) = ix1 k := funext fun a => Fin.ext (by
    match a with | ⟨0, _⟩ => rfl)
  simp only [hl1, hr1, hb1]
  refine congrArg₂ max (congrArg₂ (· + ·) ?_ rfl) rfl
  exact sum_concat (fun k' => val_main_v18 (F := Ideal) x0 x1 (ix2 e k')) (fun a => val_main_v10 (F := Ideal) x0 x1 (ix2 e a)) (fun a => val_main_v17 (F := Ideal) x0 x1 (ix2 e a))
    (fun k' => x2 (ix2 k' k)) (fun a => messages_layer_concat_lo x0 x1 e a) (fun a => messages_layer_concat_hi x0 x1 e a)

/-! ## The update -/

theorem update_layer_concat_lo (x0 : (⟨S50000x128, .f32⟩ : BufTy).Contents (Elt Ideal)) (x1 : (⟨S2x625000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (e : Fin 50000) (a : Fin 128) :
    val_main_v31 (F := Ideal) x0 x1 x2 x3 x4 x5 (ix2 e (⟨a.val, by have := a.isLt; omega⟩ : Fin 256)) = x0 (ix2 e a) := by
  unfold val_main_v31
  exact concatenate_pair_apply_left (t := S50000x256) (s₁ := S50000x128) (s₂ := S50000x128) 1 _ _ _ (ix2 e (⟨a.val, by have := a.isLt; omega⟩ : Fin 256)) rfl (ix2 e a)
    (fun b => match b with | ⟨0, _⟩ => rfl | ⟨1, _⟩ => rfl)

theorem update_layer_concat_hi (x0 : (⟨S50000x128, .f32⟩ : BufTy).Contents (Elt Ideal)) (x1 : (⟨S2x625000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (e : Fin 50000) (a : Fin 128) :
    val_main_v31 (F := Ideal) x0 x1 x2 x3 x4 x5 (ix2 e (⟨128 + a.val, by have := a.isLt; omega⟩ : Fin 256)) = val_main_v30 (F := Ideal) x0 x1 x2 x3 x4 x5 (ix2 e a) := by
  unfold val_main_v31
  exact concatenate_pair_apply_right (t := S50000x256) (s₁ := S50000x128) (s₂ := S50000x128) 1 _ _ _ (ix2 e (⟨128 + a.val, by have := a.isLt; omega⟩ : Fin 256)) rfl rfl (ix2 e a)
    (fun b hb => match b, hb with | ⟨0, _⟩, _ => rfl | ⟨1, _⟩, hb => absurd rfl hb)
    (by show a.val + 128 = 128 + a.val; omega)

/-- The reference's result is the layer pair of the node features and the aggregated messages. -/
theorem update_layer (x0 : (⟨S50000x128, .f32⟩ : BufTy).Contents (Elt Ideal)) (x1 : (⟨S2x625000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) :
    val_main_v40 (F := Ideal) x0 x1 x2 x3 x4 x5 x6 x7 x8 x9 = layer x0 (val_main_v30 (F := Ideal) x0 x1 x2 x3 x4 x5) x6 x7 x8 x9 := by
  funext i
  obtain ⟨e, q, rfl⟩ : ∃ (e : Fin 50000) (q : Fin 64), i = ix2 e q := ⟨i 0, i 1, eq_ix2 i⟩
  rw [val_main_v40_apply, val_main_v37_apply, val_main_v39_apply, val_main_v38_apply]
  unfold layer entry
  have hl2 : ∀ k : Fin 128, lidx_main_v37 (ix2 e q) k = ix2 e k := fun k => funext fun a => Fin.ext (by
    match a with | ⟨0, _⟩ => rfl | ⟨1, _⟩ => rfl)
  have hr2 : ∀ k : Fin 128, ridx_main_v37 (ix2 e q) k = ix2 k q := fun k => funext fun a => Fin.ext (by
    match a with | ⟨0, _⟩ => rfl | ⟨1, _⟩ => rfl)
  have hb2 : idx_main_v38 (idx_main_v39 (ix2 e q)) = ix1 q := funext fun a => Fin.ext (by
    match a with | ⟨0, _⟩ => rfl)
  simp only [hl2, hr2, hb2]
  refine congrArg₂ (· + ·) (Finset.sum_congr rfl fun k _ => congrArg (· * _) ?_) rfl
  rw [val_main_v36_apply, val_main_v35_apply, val_main_v32_apply, val_main_v34_apply, val_main_v33_apply, val_main_call1_v0_apply, val_main_call1_cst_apply]
  unfold Perceptron.hidden
  have hl1 : ∀ k' : Fin 256, lidx_main_v32 (ix2 e k) k' = ix2 e k' := fun k' => funext fun a => Fin.ext (by
    match a with | ⟨0, _⟩ => rfl | ⟨1, _⟩ => rfl)
  have hr1 : ∀ k' : Fin 256, ridx_main_v32 (ix2 e k) k' = ix2 k' k := fun k' => funext fun a => Fin.ext (by
    match a with | ⟨0, _⟩ => rfl | ⟨1, _⟩ => rfl)
  have hb1 : idx_main_v33 (idx_main_v34 (ix2 e k)) = ix1 k := funext fun a => Fin.ext (by
    match a with | ⟨0, _⟩ => rfl)
  simp only [hl1, hr1, hb1]
  refine congrArg₂ max (congrArg₂ (· + ·) ?_ rfl) rfl
  exact sum_concat (fun k' => val_main_v31 (F := Ideal) x0 x1 x2 x3 x4 x5 (ix2 e k')) (fun a => x0 (ix2 e a)) (fun a => val_main_v30 (F := Ideal) x0 x1 x2 x3 x4 x5 (ix2 e a))
    (fun k' => x6 (ix2 k' k)) (fun a => update_layer_concat_lo x0 x1 x2 x3 x4 x5 e a) (fun a => update_layer_concat_hi x0 x1 x2 x3 x4 x5 e a)

end Cert.ReferenceIdeal.Layered

end
-- ==== Proof.Bridge.lean ====
/-
  The two programs compute one function.

  Both are: gather the node features at each edge's source and target; apply the layer pair to get per-edge
  messages; scatter-add the messages into a zero array by each edge's target; apply the layer pair to the node
  features and the aggregate.  The gathers and the scatter-add are the same operations on the same index arrays in
  both programs, so they are never opened.  The only difference is inside the layer pair: one program slices the
  256 × 128 weight into halves and adds two products, the other concatenates the inputs and takes one product;
  both are `Layers.layer`, the first by the layout facts of `Layers`, the second by `Perceptron.sum_concat`.
-/
import proofs.«156553_j49220325212176_1_alg».proof.Proof.KernelValue
import proofs.«156553_j49220325212176_1_alg».proof.Proof.ReferenceValue

noncomputable section

namespace Cert.Bridge

open Cert.Layers Idealize.ShloMosaic Idealize.ShloMosaic.ValueIdx

/-- The first pipeline's function of sliced weights and one-row biases is the layer pair of the whole weight and the
    bias vectors. -/
theorem region0_layer (A0 A1 : (⟨Cert.KernelIdeal.S625000x128, .f32⟩ : BufTy).Contents (Elt Ideal))
    (W : (⟨Cert.KernelIdeal.S256x128, .f32⟩ : BufTy).Contents (Elt Ideal)) (b : (⟨Cert.KernelIdeal.S128, .f32⟩ : BufTy).Contents (Elt Ideal))
    (W2 : (⟨Cert.KernelIdeal.S128x128, .f32⟩ : BufTy).Contents (Elt Ideal)) (b2 : (⟨Cert.KernelIdeal.S128, .f32⟩ : BufTy).Contents (Elt Ideal)) :
    Cert.KernelIdeal.Region0.arr A0 A1 (Cert.KernelIdeal.Whole.lo W) (Cert.KernelIdeal.Whole.hi W) (Cert.KernelIdeal.Whole.row128 b) W2
        (Cert.KernelIdeal.Whole.row128 b2)
      = layer A0 A1 W b W2 b2 := by
  funext i
  unfold Cert.KernelIdeal.Region0.arr layer Cert.KernelIdeal.Whole.lo Cert.KernelIdeal.Whole.hi Cert.KernelIdeal.Whole.row128
  simp only [slice_lo, slice_hi, row_of_vec]

/-- The same for the second pipeline, into 64 columns. -/
theorem region1_layer (A0 A1 : (⟨Cert.KernelIdeal.S50000x128, .f32⟩ : BufTy).Contents (Elt Ideal))
    (W : (⟨Cert.KernelIdeal.S256x128, .f32⟩ : BufTy).Contents (Elt Ideal)) (b : (⟨Cert.KernelIdeal.S128, .f32⟩ : BufTy).Contents (Elt Ideal))
    (W2 : (⟨Cert.KernelIdeal.S128x64, .f32⟩ : BufTy).Contents (Elt Ideal)) (b2 : (⟨Cert.KernelIdeal.S64, .f32⟩ : BufTy).Contents (Elt Ideal)) :
    Cert.KernelIdeal.Region1.arr A0 A1 (Cert.KernelIdeal.Whole.lo W) (Cert.KernelIdeal.Whole.hi W) (Cert.KernelIdeal.Whole.row128 b) W2
        (Cert.KernelIdeal.Whole.row64 b2)
      = layer A0 A1 W b W2 b2 := by
  funext i
  unfold Cert.KernelIdeal.Region1.arr layer Cert.KernelIdeal.Whole.lo Cert.KernelIdeal.Whole.hi Cert.KernelIdeal.Whole.row128 Cert.KernelIdeal.Whole.row64
  simp only [slice_lo, slice_hi, row_of_vec]

/-- The gathers and the scatter-add are spelt alike in the two programs. -/
theorem gather_src (x0 : (⟨Cert.ReferenceIdeal.S50000x128, .f32⟩ : BufTy).Contents (Elt Ideal)) (x1 : (⟨Cert.ReferenceIdeal.S2x625000, .i32⟩ : BufTy).Contents (Elt Ideal)) :
    Cert.KernelIdeal.Whole.gathered x0 (Cert.KernelIdeal.Whole.wrap (Cert.KernelIdeal.Whole.src x1))
      = Cert.ReferenceIdeal.Read.val_main_v10 (F := Ideal) x0 x1 := rfl
theorem gather_tgt (x0 : (⟨Cert.ReferenceIdeal.S50000x128, .f32⟩ : BufTy).Contents (Elt Ideal)) (x1 : (⟨Cert.ReferenceIdeal.S2x625000, .i32⟩ : BufTy).Contents (Elt Ideal)) :
    Cert.KernelIdeal.Whole.gathered x0 (Cert.KernelIdeal.Whole.wrap (Cert.KernelIdeal.Whole.tgt x1))
      = Cert.ReferenceIdeal.Read.val_main_v17 (F := Ideal) x0 x1 := rfl
theorem scatter_tgt (x1 : (⟨Cert.ReferenceIdeal.S2x625000, .i32⟩ : BufTy).Contents (Elt Ideal)) (u : (⟨Cert.ReferenceIdeal.S625000x128, .f32⟩ : BufTy).Contents (Elt Ideal)) :
    Cert.KernelIdeal.Whole.scattered x1 u
      = Host.scatterAdd (F := Ideal) (φ := .f32) Cert.ReferenceIdeal.scatter_S50000x128_S625000x1_S625000x128_1_0_0_1
          (Cert.ReferenceIdeal.Read.val_main_v28 (F := Ideal)) (Cert.ReferenceIdeal.Read.val_main_v29 (F := Ideal) x1) u := rfl

/-- The kernel's result and the reference's are one function of the ten arguments. -/
theorem result_eq (x0 : (⟨Cert.ReferenceIdeal.S50000x128, .f32⟩ : BufTy).Contents (Elt Ideal)) (x1 : (⟨Cert.ReferenceIdeal.S2x625000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S256x128, .f32⟩ : BufTy).Contents (Elt Ideal)) (x7 : (⟨Cert.ReferenceIdeal.S128, .f32⟩ : BufTy).Contents (Elt Ideal)) (x8 : (⟨Cert.ReferenceIdeal.S128x64, .f32⟩ : BufTy).Contents (Elt Ideal)) (x9 : (⟨Cert.ReferenceIdeal.S64, .f32⟩ : BufTy).Contents (Elt Ideal)) :
    Cert.KernelIdeal.Whole.result x0 x1 x2 x3 x4 x5 x6 x7 x8 x9
      = Cert.ReferenceIdeal.Read.val_main_v40 (F := Ideal) x0 x1 x2 x3 x4 x5 x6 x7 x8 x9 := by
  rw [Cert.ReferenceIdeal.Layered.update_layer]
  unfold Cert.KernelIdeal.Whole.result
  rw [region1_layer]
  refine congrArg (fun A => layer x0 A x6 x7 x8 x9) ?_
  unfold Cert.ReferenceIdeal.Read.val_main_v30
  rw [Cert.ReferenceIdeal.Layered.messages_layer, ← gather_src, ← gather_tgt, ← scatter_tgt]
  unfold Cert.KernelIdeal.Whole.messages
  rw [region0_layer]

end Cert.Bridge

end
-- ==== Proof.lean ====
/-
  A graph message-passing step: the kernel against its plain reference, equal on the extended reals.

  Both programs gather the node features (50000 × 128) at the source and at the target of each of the 625000 edges,
  map each edge's pair of rows through a two-layer perceptron (256 → 128 → 128, rectified in between) to a message,
  add the messages into their target nodes, and map each node's features beside its aggregate through a second
  perceptron (256 → 128 → 64).  The kernel runs each perceptron as a pipeline over blocks of 5000 rows and splits
  the first layer's 256 × 128 weight into the half that multiplies the first 128 inputs and the half that
  multiplies the last 128; the reference concatenates the inputs and multiplies once.  A sum over 256 coordinates
  is the sum over the first 128 plus the sum over the last 128, so the two agree entry by entry; changes of float
  format are the identity on the extended reals, and nothing here needs the inputs to be finite.

  The three frame claims are the generated frames (the reference's is its run with the result dropped); the
  idealization rewrote no operation, so `preserves` is `True`; `algebraic` puts the kernel's run
  (`KernelIdeal.Whole.run`) beside the reference's and joins them by `Bridge.result_eq`.
-/
import proofs.«156553_j49220325212176_1_alg».proof.Defs
import proofs.«156553_j49220325212176_1_alg».proof.Proof.Gen.Kernel
import proofs.«156553_j49220325212176_1_alg».proof.Proof.Gen.Kernel.Skeleton
import proofs.«156553_j49220325212176_1_alg».proof.Proof.Gen.Kernel.Launch
import proofs.«156553_j49220325212176_1_alg».proof.Proof.Gen.Kernel.Points
import proofs.«156553_j49220325212176_1_alg».proof.Proof.Gen.Kernel.Frame
import proofs.«156553_j49220325212176_1_alg».proof.Proof.Gen.KernelIdeal
import proofs.«156553_j49220325212176_1_alg».proof.Proof.Gen.KernelIdeal.Skeleton
import proofs.«156553_j49220325212176_1_alg».proof.Proof.Gen.KernelIdeal.Launch
import proofs.«156553_j49220325212176_1_alg».proof.Proof.Gen.KernelIdeal.Points
import proofs.«156553_j49220325212176_1_alg».proof.Proof.Gen.KernelIdeal.Frame
import proofs.«156553_j49220325212176_1_alg».proof.Proof.Gen.ReferenceIdeal
import proofs.«156553_j49220325212176_1_alg».proof.Proof.Gen.Pre_finite_inputs
import proofs.«156553_j49220325212176_1_alg».proof.Proof.Gen.ReferenceIdeal.Run
import proofs.«156553_j49220325212176_1_alg».proof.Proof.Gen.ReferenceIdeal.Read
import proofs.«156553_j49220325212176_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no pipeline: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the ten arguments, both programs end with the result array at one and the same
    function of those arguments. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v40_eq, ← Cert.Bridge.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
